-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S8192x4096 .f32) (main_arg1 : FVec F S16384x4096 .f32) (main_arg2 : FVec F S16384 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S8192x4096 : Shape := ⟨2, ![8192, 4096]⟩
abbrev S16384x4096 : Shape := ⟨2, ![16384, 4096]⟩
abbrev S16384 : Shape := ⟨1, ![16384]⟩
abbrev S1x16384 : Shape := ⟨2, ![1, 16384]⟩
abbrev S8192x16384 : Shape := ⟨2, ![8192, 16384]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S1x16384, .f32⟩
  | .hbm, ⟨4, _⟩ => ⟨S8192x16384, .f32⟩
  | .local _ .vmem, ⟨0, _⟩ => ⟨S1024x4096, .f32⟩
  | .local _ .vmem, ⟨1, _⟩ => ⟨S1024x4096, .f32⟩
  | .local _ .vmem, ⟨2, _⟩ => ⟨S512x4096, .f32⟩
  | .local _ .vmem, ⟨3, _⟩ => ⟨S512x4096, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S16384_S1x16384 : S16384.ShapeCasts S1x16384
  inb_S1024x4096_S1024x4096_0_0 : ∀ a, (![0, 0] : Fin 2 → Nat) a + S1024x4096.size a ≤ S1024x4096.size a
  h_S1024x4096 : 0 < S1024x4096.numel
  bitsLt_bf16_f32 : FTy.bits .bf16 < FTy.bits .f32
  shapeCasts_S1024x4096_S1024x4096 : S1024x4096.ShapeCasts S1024x4096
  packedbf16_S1024x4096_S1024x4096_0_0 : (Rect.unit (s := S1024x4096) ![0, 0] S1024x4096.size inb_S1024x4096_S1024x4096_0_0).PackedRows (EltTy.packing .bf16)
  inb_S512x4096_S512x4096_0_0 : ∀ a, (![0, 0] : Fin 2 → Nat) a + S512x4096.size a ≤ S512x4096.size a
  h_S512x4096 : 0 < S512x4096.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .f32 = 32 ∨ (Rect.block (s := S16384x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x16384.size a
  hwx0_2 : ∀ i : grid0.Coords, EltTy.bits .f32 = 32 ∨ (Rect.block (s := S1x16384) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x16384.size a
  hwx0_3 : ∀ i : grid0.Coords, EltTy.bits .f32 = 32 ∨ (Rect.block (s := S8192x16384) S1024x512.size (cc0_transform_3 i) (hinb0_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S16384x4096 : Shape := ⟨2, ![16384, 4096]⟩
abbrev S16384 : Shape := ⟨1, ![16384]⟩
abbrev S4096x16384 : Shape := ⟨2, ![4096, 16384]⟩
abbrev S8192x16384 : Shape := ⟨2, ![8192, 16384]⟩
abbrev S1x16384 : Shape := ⟨2, ![1, 16384]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S4096x16384, .f32⟩
  | .hbm, ⟨4, _⟩ => ⟨S8192x16384, .f32⟩
  | .hbm, ⟨5, _⟩ => ⟨S1x16384, .f32⟩
  | .hbm, ⟨6, _⟩ => ⟨S8192x16384, .f32⟩
  | .hbm, ⟨7, _⟩ => ⟨S8192x16384, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S16384x4096_S4096x16384_1_0 : S16384x4096.Transposes [1, 0] S4096x16384
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  dot_S8192x4096_S4096x16384_S8192x16384_1_0_0_1_n_n_wf : DotDims.WF S8192x4096 S4096x16384 S8192x16384 [1] [0] [0] [1] [] []

variable [Facts₀]

def dot_S8192x4096_S4096x16384_S8192x16384_1_0_0_1_n_n : DotDims S8192x4096 S4096x16384 S8192x16384 where
  lhsContracting := [1]
  rhsContracting := [0]
  lhsNonContracting := [0]
  rhsNonContracting := [1]
  lhsBatch := []
  rhsBatch := []
  wf := dot_S8192x4096_S4096x16384_S8192x16384_1_0_0_1_n_n_wf

class Facts : Prop extends Facts₀ where

variable [Facts]
-- ==== Proof.Blocks.lean ====
/-
  The grid is 8 rows of 32 points; point t sits in row t / 32 and column t % 32. At point t
  the x window stages rows (t / 32) * 1024 … of x (all 4096 columns), the w window rows
  (t % 32) * 512 … of w, the bias window columns (t % 32) * 512 … of the one-row bias array,
  and the output window the 1024 x 512 block at (t / 32, t % 32). This module decides those
  block indices once over the 256 points and reads each input block as that stretch of rows
  or columns of its array.
-/
import proofs.«115282_g33887291965657_cont_8to1_b_748_5_alg».proof.Proof.Gen.KernelIdeal.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-! ## The index maps, over the grid -/

theorem nPoints : cfg0.N = 256 := N_0

/-- Each window's block index at point t, per axis. -/
theorem idx_facts : ∀ t : Fin cfg0.N,
    win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = 0 ∧ win0_2.index t (1 : Fin 2) = t.val % 32
    ∧ win0_3.index t (0 : Fin 2) = t.val / 32 ∧ win0_3.index t (1 : Fin 2) = t.val % 32 :=
  (by decide +kernel : ∀ t : Fin grid0.N, _)

/-! ## The three input blocks as rows and columns of their arrays -/

/-- Row block r of x: rows r * 1024 … r * 1024 + 1023, every column. -/
def xrows {α : Type} (X : S8192x4096.Idx → α) (r : Fin 8) : S1024x4096.Idx → α :=
  fun y => X (ix2 ⟨r.val * 1024 + (y 0).val, by have := idx2_lt0 y; have := r.isLt; omega⟩ (y 1))

/-- Row block s of w: rows s * 512 … s * 512 + 511, every column. -/
def wrows {α : Type} (W : S16384x4096.Idx → α) (s : Fin 32) : S512x4096.Idx → α :=
  fun y => W (ix2 ⟨s.val * 512 + (y 0).val, by have := idx2_lt0 y; have := s.isLt; omega⟩ (y 1))

/-- Column block s of the one-row bias array: columns s * 512 … s * 512 + 511. -/
def bcols {α : Type} (B : S1x16384.Idx → α) (s : Fin 32) : S1x512.Idx → α :=
  fun y => B (ix2 (0 : Fin 1) ⟨s.val * 512 + (y 1).val, by have := idx2_lt1 y; have := s.isLt; omega⟩)

/-- The grid row of a point. -/
abbrev gridRow (n : ℕ) (h : n < cfg0.N) : Fin 8 := ⟨n / 32, by have := lt_of_lt_of_eq h nPoints; omega⟩
/-- The grid column of a point. -/
abbrev gridCol (n : ℕ) (h : n < cfg0.N) : Fin 32 := ⟨n % 32, Nat.mod_lt _ (by decide)⟩

theorem iblk0_eq (c : Dev nD) (t : Fin cfg0.N) :
    (iblk m c 0 t : Vec F S1024x4096 .f32) = xrows (V m c main_arg0) (gridRow t.val t.isLt) := by
  obtain ⟨e0, e1, -⟩ := idx_facts t
  funext y
  unfold iblk xrows
  rw [View.read_apply]
  show V m c main_arg0 _ = V m c main_arg0 _
  congr 1
  funext a
  apply Fin.ext
  match a with
  | ⟨0, _⟩ => show win0_0.index t 0 * 1024 + 1 * (y 0).val = t.val / 32 * 1024 + (y 0).val; rw [e0]; omega
  | ⟨1, _⟩ => show win0_0.index t 1 * 4096 + 1 * (y 1).val = (y 1).val; rw [e1]; omega

theorem iblk1_eq (c : Dev nD) (t : Fin cfg0.N) :
    (iblk m c 1 t : Vec F S512x4096 .f32) = wrows (V m c main_arg1) (gridCol t.val t.isLt) := by
  obtain ⟨-, -, e0, e1, -⟩ := idx_facts t
  funext y
  unfold iblk wrows
  rw [View.read_apply]
  show V m c main_arg1 _ = V m c main_arg1 _
  congr 1
  funext a
  apply Fin.ext
  match a with
  | ⟨0, _⟩ => show win0_1.index t 0 * 512 + 1 * (y 0).val = t.val % 32 * 512 + (y 0).val; rw [e0]; omega
  | ⟨1, _⟩ => show win0_1.index t 1 * 4096 + 1 * (y 1).val = (y 1).val; rw [e1]; omega

theorem iblk2_eq (c : Dev nD) (t : Fin cfg0.N) :
    (iblk m c 2 t : Vec F S1x512 .f32) = bcols (V m c main_v0) (gridCol t.val t.isLt) := by
  obtain ⟨-, -, -, -, e0, e1, -⟩ := idx_facts t
  funext y
  unfold iblk bcols
  rw [View.read_apply]
  show V m c main_v0 _ = V m c main_v0 _
  congr 1
  funext a
  apply Fin.ext
  match a with
  | ⟨0, _⟩ => show win0_2.index t 0 * 1 + 1 * (y 0).val = 0; rw [e0]; have := idx2_lt0 y; omega
  | ⟨1, _⟩ => show win0_2.index t 1 * 512 + 1 * (y 1).val = t.val % 32 * 512 + (y 1).val; rw [e1]; omega

end Cert.KernelIdeal.Blocks

end
-- ==== Proof.Pieces.lean ====
/-
  What one run of the body leaves behind, as values of its input blocks. The body has two
  cases. At the first point of each row of the grid (column coordinate 0) it copies the x
  block into the scratch, and its output block is computed from that fresh copy. At every
  other point it leaves the scratch alone, and its output block is computed from whatever the
  scratch held when the point began. In both cases each buffer is written by exactly one
  store that covers it whole, so what the buffer ends holding is that store's value, and every
  load reads a whole buffer, so it reads the buffer's contents as they stand.
-/
import proofs.«115282_g33887291965657_cont_8to1_b_748_5_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- First point of a row of the grid: the scratch ends holding the stored copy of the x block. -/
theorem scratch_first (c : Dev nD) (i : grid0.Coords) (a2 : Memref sig .tc .vmem S1024x4096 .f32) (h2 : a2.IsWhole) (a3 : Memref sig .tc .vmem S512x4096 .f32) (h3 : a3.IsWhole) (a4 : Memref sig .tc .vmem S1x512 .f32) (h4 : a4.IsWhole) (a5 : Memref sig .tc .vmem S1024x512 .f32) (h5 : a5.IsWhole) (a6 : Memref sig .tc .vmem S1024x4096 .bf16) (h6 : a6.IsWhole) (hc : cond0_0 i) (x0 : Vec F S1024x4096 .f32) (x1 : Vec F S512x4096 .f32) (x2 : Vec F S1x512 .f32) :
    sout0_A_0 c i a2 h2 a3 h3 a4 h4 a5 h5 a6 h6 hc x0 x1 x2 = k0_pay1 x0 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, View.ld_unit_zero (S := S1024x4096) hz]

/-- First point of a row of the grid: the output block is the body's value of the w block, the
    fresh copy, and the bias block. -/
theorem out_first (c : Dev nD) (i : grid0.Coords) (a2 : Memref sig .tc .vmem S1024x4096 .f32) (h2 : a2.IsWhole) (a3 : Memref sig .tc .vmem S512x4096 .f32) (h3 : a3.IsWhole) (a4 : Memref sig .tc .vmem S1x512 .f32) (h4 : a4.IsWhole) (a5 : Memref sig .tc .vmem S1024x512 .f32) (h5 : a5.IsWhole) (a6 : Memref sig .tc .vmem S1024x4096 .bf16) (h6 : a6.IsWhole) (hc : cond0_0 i) (x0 : Vec F S1024x4096 .f32) (x1 : Vec F S512x4096 .f32) (x2 : Vec F S1x512 .f32) :
    out0_A_3 c i a2 h2 a3 h3 a4 h4 a5 h5 a6 h6 hc x0 x1 x2 = k0_pay2 x1 (k0_pay1 x0) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, h4.read_unread,
    View.ld_unit_zero (S := S1024x4096) hz, View.ld_unit_zero (S := S512x4096) hz, View.ld_unit_zero (S := S1x512) hz,
    View.readCov_unit_zero (S := S1024x4096) _ hz]

/-- Any other point: the output block is the body's value of the w block, the scratch as the
    point found it, and the bias block. -/
theorem out_later (c : Dev nD) (i : grid0.Coords) (a2 : Memref sig .tc .vmem S1024x4096 .f32) (h2 : a2.IsWhole) (a3 : Memref sig .tc .vmem S512x4096 .f32) (h3 : a3.IsWhole) (a4 : Memref sig .tc .vmem S1x512 .f32) (h4 : a4.IsWhole) (a5 : Memref sig .tc .vmem S1024x512 .f32) (h5 : a5.IsWhole) (a6 : Memref sig .tc .vmem S1024x4096 .bf16) (h6 : a6.IsWhole) (hc : ¬cond0_0 i) (x0 : Vec F S1024x4096 .f32) (x1 : Vec F S512x4096 .f32) (x2 : Vec F S1x512 .f32) (xs : Vec F S1024x4096 .bf16) :
    out0_B_3 c i a2 h2 a3 h3 a4 h4 a5 h5 a6 h6 hc x0 x1 x2 xs = k0_pay2 x1 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero hz]
  simp only [View.readAt_eq_ld, h3.read_unread, h4.read_unread, h6.read_unread,
    View.ld_unit_zero (S := S1024x4096) hz, View.ld_unit_zero (S := S512x4096) hz, View.ld_unit_zero (S := S1x512) hz]

end Cert.KernelIdeal.Pieces

end
-- ==== Proof.Carried.lean ====
/-
  The scratch is written only at the first point of a grid row (t % 32 = 0), with the copy of
  that row's x block, and read at every point. So after ANY point t it holds the copy of x
  block t / 32: at a first point because it was just stored, at a later point because the
  point before left it so and t - 1 lies in the same grid row. That is an induction on the
  point, and with it every point's output block is the body's value of ITS OWN three blocks.
-/
import proofs.«115282_g33887291965657_cont_8to1_b_748_5_alg».proof.Proof.Blocks
import proofs.«115282_g33887291965657_cont_8to1_b_748_5_alg».proof.Proof.Pieces

set_option maxRecDepth 16384

noncomputable section

namespace Cert.KernelIdeal.Carried

open Cert.KernelIdeal Cert.KernelIdeal.Gen Cert.KernelIdeal.Blocks Idealize.ShloMosaic Idealize.ShloMosaic.TcCoe Idealize.ShloMosaic.ValueIdx Idealize.SL.Sem

variable {F : FTy → Type} [FloatOps F]
variable (m : (ℓ : Loc nD τ sig) → Buf (Elt F) ℓ)

/-! ## The scratch after every point -/

/-- At the first point of a grid row the scratch is left holding the copy of that row's x block. -/
theorem scratch_first (c : Dev nD) (t : Fin cfg0.N) (h0 : t.val % 32 = 0) :
    (outsAt0 m c t.val t.isLt).2 = k0_pay1 (xrows (V m c main_arg0) (gridRow t.val t.isLt)) := by
  rw [outsAt0_A m c t h0]
  dsimp only
  exact (Pieces.scratch_first (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)).trans
    (congrArg k0_pay1 (iblk0_eq m c t))

/-- After every point the scratch holds the copy of the x block of the point's grid row. -/
theorem scratch_eq (c : Dev nD) : ∀ (n : ℕ) (h : n < cfg0.N),
    (outsAt0 m c n h).2 = k0_pay1 (xrows (V m c main_arg0) (gridRow n h))
  | 0, h => scratch_first m c ⟨0, h⟩ rfl
  | n + 1, h => by
    by_cases h0 : (n + 1) % 32 = 0
    · exact scratch_first m c ⟨n + 1, h⟩ h0
    · have e : gridRow n (Nat.lt_of_succ_lt h) = gridRow (n + 1) h := Fin.ext (by show n / 32 = (n + 1) / 32; omega)
      rw [outsAt0_B m c ⟨n + 1, h⟩ h0]
      dsimp only
      unfold sout0_B_0
      exact (scratch_eq c n (Nat.lt_of_succ_lt h)).trans (congrArg (fun r => k0_pay1 (xrows (V m c main_arg0) r)) e)

/-! ## Every point's output block -/

/-- The output block after point t: the body's value of the point's w rows, the copy of its x
    rows, and its bias columns. -/
theorem out_eq (c : Dev nD) (t : Fin cfg0.N) :
    (outsAt0 m c t.val t.isLt).1
      = k0_pay2 (wrows (V m c main_arg1) (gridCol t.val t.isLt))
          (k0_pay1 (xrows (V m c main_arg0) (gridRow t.val t.isLt)))
          (bcols (V m c main_v0) (gridCol t.val t.isLt)) := by
  by_cases h0 : t.val % 32 = 0
  · rw [outsAt0_A m c t h0]
    dsimp only
    refine (Pieces.out_first (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)).trans ?_
    rw [iblk0_eq, iblk1_eq, iblk2_eq]
  · rw [outsAt0_B m c t h0]
    dsimp only
    refine (Pieces.out_later (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2).trans ?_
    rw [scratch_eq, iblk1_eq, iblk2_eq]
    have e : gridRow (t.val - 1) (Nat.lt_of_le_of_lt (Nat.sub_le _ _) t.isLt) = gridRow t.val t.isLt :=
      Fin.ext (by show (t.val - 1) / 32 = t.val / 32; omega)
    rw [e]

end Cert.KernelIdeal.Carried

end
-- ==== Proof.Payload.lean ====
/-
  The body's arithmetic, read at one entry of the output block.
  The body keeps a copy of the x block (1024 rows, all 4096 columns) in its scratch; at the
  ideal values the narrowing to bf16 changes nothing, so the copy is the block. Each point
  multiplies that copy against its block of w (512 rows of w): entry (p, q) of the product
  contracts row p of the copy with row q of the w block over the 4096 columns, starting from
  a zero accumulator, so it is just that sum. The bias block is one row of 512 entries,
  repeated down the 1024 rows: entry (p, q) reads it at (0, q).
-/
import proofs.«115282_g33887291965657_cont_8to1_b_748_5_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## Where the product reads its operands -/

/-- The left operand's row is the output's row; -/
theorem lhs_row (i : S1024x512.Idx) (k : dot_S1024x4096_S512x4096_S1024x512_1_1_0_0_n_n.contr.Idx) :
    (dot_S1024x4096_S512x4096_S1024x512_1_1_0_0_n_n.lhsIdx i k 0).val = (i 0).val := by
  unfold DotDims.lhsIdx
  rw [dif_neg (show ¬(0 : Fin S1024x4096.rank) ∈ dot_S1024x4096_S512x4096_S1024x512_1_1_0_0_n_n.lhsBatch by decide),
    dif_pos (show (0 : Fin S1024x4096.rank) ∈ dot_S1024x4096_S512x4096_S1024x512_1_1_0_0_n_n.lhsNonContracting by decide)]
  rfl

/-- its column is the contracted one. -/
theorem lhs_col (i : S1024x512.Idx) (k : dot_S1024x4096_S512x4096_S1024x512_1_1_0_0_n_n.contr.Idx) :
    (dot_S1024x4096_S512x4096_S1024x512_1_1_0_0_n_n.lhsIdx i k 1).val = (k ⟨0, by decide⟩).val :=
  dot_S1024x4096_S512x4096_S1024x512_1_1_0_0_n_n.lhsIdx_val_of_single rfl i k

/-- The right operand's row is the output's column (the product is against the transpose); -/
theorem rhs_row (i : S1024x512.Idx) (k : dot_S1024x4096_S512x4096_S1024x512_1_1_0_0_n_n.contr.Idx) :
    (dot_S1024x4096_S512x4096_S1024x512_1_1_0_0_n_n.rhsIdx i k 0).val = (i 1).val := by
  unfold DotDims.rhsIdx
  rw [dif_neg (show ¬(0 : Fin S512x4096.rank) ∈ dot_S1024x4096_S512x4096_S1024x512_1_1_0_0_n_n.rhsBatch by decide),
    dif_pos (show (0 : Fin S512x4096.rank) ∈ dot_S1024x4096_S512x4096_S1024x512_1_1_0_0_n_n.rhsNonContracting by decide)]
  rfl

/-- its column is the contracted one. -/
theorem rhs_col (i : S1024x512.Idx) (k : dot_S1024x4096_S512x4096_S1024x512_1_1_0_0_n_n.contr.Idx) :
    (dot_S1024x4096_S512x4096_S1024x512_1_1_0_0_n_n.rhsIdx i k 1).val = (k ⟨0, by decide⟩).val :=
  dot_S1024x4096_S512x4096_S1024x512_1_1_0_0_n_n.rhsIdx_val_of_single rfl i k

/-! ## The product and the bias at an entry -/

/-- Entry (p, q) of the product into a zero accumulator: row p of the left operand against
    row q of the right, summed over the 4096 columns. -/
theorem matmul_at (a : FVec Ideal S1024x4096 .bf16) (b : FVec Ideal S512x4096 .bf16) (p : Fin 1024) (q : Fin 512) :
    matmul (F := Ideal) dot_S1024x4096_S512x4096_S1024x512_1_1_0_0_n_n none a b (constant (F := Ideal) S1024x512 .f32 0x00000000#32) (ix2 p q)
      = ∑ k : Fin 4096, a (ix2 p k) * b (ix2 q k) := by
  simp only [matmul]
  rw [Ideal.matmul_constant_zero_apply,
    ← Equiv.sum_comp (ValueIdx.contrEquiv1 dot_S1024x4096_S512x4096_S1024x512_1_1_0_0_n_n 4096 rfl rfl).symm]
  refine Finset.sum_congr rfl fun k _ => ?_
  have hk := ValueIdx.contrEquiv1_symm_val dot_S1024x4096_S512x4096_S1024x512_1_1_0_0_n_n 4096 rfl rfl k
  have el : dot_S1024x4096_S512x4096_S1024x512_1_1_0_0_n_n.lhsIdx (ix2 p q) ((ValueIdx.contrEquiv1 dot_S1024x4096_S512x4096_S1024x512_1_1_0_0_n_n 4096 rfl rfl).symm k) = ix2 p k :=
    funext fun d => Fin.ext (by
      match d with
      | ⟨0, _⟩ => exact lhs_row _ _
      | ⟨1, _⟩ => exact (lhs_col _ _).trans hk)
  have er : dot_S1024x4096_S512x4096_S1024x512_1_1_0_0_n_n.rhsIdx (ix2 p q) ((ValueIdx.contrEquiv1 dot_S1024x4096_S512x4096_S1024x512_1_1_0_0_n_n 4096 rfl rfl).symm k) = ix2 q k :=
    funext fun d => Fin.ext (by
      match d with
      | ⟨0, _⟩ => exact rhs_row _ _
      | ⟨1, _⟩ => exact (rhs_col _ _).trans hk)
  rw [el, er]

/-- The bias row repeated down the block: entry (p, q) is the row's entry q. -/
theorem bias_at {α : Type} (r : S1x512.Idx → α) (p : Fin 1024) (q : Fin 512) :
    broadcastTo S1024x512 (shapeCast S1x512 r shapeCasts_S1x512_S1x512) broadcasts_S1x512_S1024x512 (ix2 p q)
      = r (ix2 (0 : Fin 1) q) := by
  rw [shapeCast_self]
  exact broadcastTo_apply r broadcasts_S1x512_S1024x512 (ix2 p q) (ix2 (0 : Fin 1) q) (fun d => by
    match d with
    | ⟨0, _⟩ => show (0 : Nat) = if (1 : Nat) = 1 then 0 else p.val; rw [if_pos rfl]
    | ⟨1, _⟩ => show q.val = if (512 : Nat) = 1 then 0 else q.val; rw [if_neg (by decide)])

/-! ## The two stored values -/

/-- What the first point of a row of the grid stores in the scratch: the x block itself. -/
theorem copy_eq (x : Vec Ideal S1024x4096 .f32) : k0_pay1 (F := Ideal) x = x := by
  unfold k0_pay1
  dsimp only
  rw [shapeCast_self]
  rfl

/-- What every point stores in the output block, at entry (p, q): the scratch's row p against
    the w block's row q over the 4096 columns, plus the bias block's entry q. -/
theorem out_at (wb : Vec Ideal S512x4096 .f32) (xs : Vec Ideal S1024x4096 .bf16) (bb : Vec Ideal S1x512 .f32)
    (p : Fin 1024) (q : Fin 512) :
    k0_pay2 (F := Ideal) wb xs bb (ix2 p q)
      = (∑ k : Fin 4096, xs (ix2 p k) * wb (ix2 q k)) + bb (ix2 (0 : Fin 1) q) := by
  unfold k0_pay2
  refine (addf_apply _ _ _).trans ?_
  rw [matmul_at, bias_at]
  rfl

end Cert.KernelIdeal.Body

end
-- ==== Proof.Spec.lean ====
/-
  The projection both programs compute, as one function of the three argument arrays:
  entry (r, c) of the result is the sum over k of x[r, k] * w[c, k], plus bias[c].
  Nothing else is needed to join the two sides: at the ideal values a change of float
  format is the identity, and the kernel's product into a zero accumulator and the host's
  contraction are the same sum over k, so both programs are this function term for term.
-/
import Idealize.ShloMosaic.PureOps.Ideal
import Idealize.ShloMosaic.Lib.ValueIdx

noncomputable section

namespace Cert.Spec

open Idealize.ShloMosaic Idealize.ShloMosaic.ValueIdx

/-- x @ wᵀ + bias over the extended reals: row r of x against row c of w, contracted over
    their 4096 columns, then bias[c] added. -/
def proj (x : (⟨2, ![8192, 4096]⟩ : Shape).Idx → EReal) (w : (⟨2, ![16384, 4096]⟩ : Shape).Idx → EReal)
    (b : (⟨1, ![16384]⟩ : Shape).Idx → EReal) : (⟨2, ![8192, 16384]⟩ : Shape).Idx → EReal :=
  fun i => (∑ k : Fin 4096, x (ix2 (i 0) k) * w (ix2 (i 1) k)) + b (ix1 (i 1))

end Cert.Spec

end
-- ==== Proof.Final.lean ====
/-
  From the blocks to the whole array. Entry (p, q) of the block written at grid point
  (r, s) is entry (r * 1024 + p, s * 512 + q) of the projection: the copy of x rows
  r * 1024 … contributes row r * 1024 + p of x, the w rows s * 512 … contribute row
  s * 512 + q of w, and the bias columns s * 512 … contribute bias[s * 512 + q] (the one-row
  bias array is the bias vector with a unit axis put in front). The 8 x 32 output blocks
  tile the 8192 x 16384 array — entry (i, j) lies in the block of point (i / 1024, j / 512) —
  and every point writes its block back, so the array ends holding the projection everywhere.
-/
import proofs.«115282_g33887291965657_cont_8to1_b_748_5_alg».proof.Proof.Carried
import proofs.«115282_g33887291965657_cont_8to1_b_748_5_alg».proof.Proof.Payload
import proofs.«115282_g33887291965657_cont_8to1_b_748_5_alg».proof.Proof.Spec
import Idealize.ShloMosaic.Lib.Pipeline.Value
import Idealize.ShloMosaic.Lib.StableHlo.Run

set_option maxRecDepth 16384

noncomputable section

namespace Cert.KernelIdeal.Final

open Cert.KernelIdeal Cert.KernelIdeal.Gen Cert.KernelIdeal.Blocks Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The projection of the three argument arrays as launched. -/
abbrev result (c : Dev nD) : S8192x16384.Idx → EReal :=
  Cert.Spec.proj (m ((c : Thread nD τ).loc main_arg0)) (m ((c : Thread nD τ).loc main_arg1)) (m ((c : Thread nD τ).loc main_arg2))

/-! ## The bias array the region finds -/

/-- Before the region the host reshapes the bias vector to one row. -/
theorem biasRow_eq (c : Dev nD) :
    (V m c main_v0 : S1x16384.Idx → EReal) = shapeCast S1x16384 (m ((c : Thread nD τ).loc main_arg2)) shapeCasts_S16384_S1x16384 := by
  dsimp only [V, hostOps0]; after_results; rfl

/-- Its entry (0, j) is bias[j]. -/
theorem biasRow_at (c : Dev nD) (j : Fin 16384) :
    V m c main_v0 (ix2 (0 : Fin 1) j) = m ((c : Thread nD τ).loc main_arg2) (ix1 j) := by
  rw [biasRow_eq]
  refine (shapeCast_addUnit_apply ![16384] _ shapeCasts_S16384_S1x16384 (ix2 (0 : Fin 1) j)).trans ?_
  congr 1
  funext a
  match a with
  | ⟨0, _⟩ => rfl

/-! ## One entry of one block -/

/-- Entry (p, q) of the block of grid point (r, s) is the projection at (r * 1024 + p, s * 512 + q). -/
theorem entry_eq (c : Dev nD) (r : Fin 8) (s : Fin 32) (p : Fin 1024) (q : Fin 512) :
    k0_pay2 (F := Ideal) (wrows (V m c main_arg1) s) (k0_pay1 (xrows (V m c main_arg0) r)) (bcols (V m c main_v0) s) (ix2 p q)
      = result m c (ix2 ⟨r.val * 1024 + p.val, by have := r.isLt; have := p.isLt; omega⟩
          ⟨s.val * 512 + q.val, by have := s.isLt; have := q.isLt; omega⟩) := by
  rw [Body.out_at, Body.copy_eq]
  unfold xrows wrows bcols
  rw [biasRow_at, V_main_arg0, V_main_arg1]
  rfl

/-! ## What each point writes back, and the cover -/

/-- What point t writes back is block t of the projection. -/
theorem flushed_eq (c : Dev nD) (t : Fin cfg0.N) :
    (dats m 0 c).flushed 3 t = ((cfg0.win 3).blk t).view.read (Elt Ideal) (result m c) := by
  obtain ⟨-, -, -, -, -, -, e0, e1⟩ := idx_facts t
  rw [Cert.KernelIdeal.Value.flushed3, Carried.out_eq]
  funext j
  obtain ⟨p, q, rfl⟩ : ∃ (p : Fin 1024) (q : Fin 512), j = ix2 p q := ⟨j 0, j 1, eq_ix2 j⟩
  refine (entry_eq m c (gridRow t.val t.isLt) (gridCol t.val t.isLt) p q).trans ?_
  rw [View.read_apply]
  congr 1
  funext a
  apply Fin.ext
  match a with
  | ⟨0, _⟩ => show t.val / 32 * 1024 + p.val = win0_3.index t 0 * 1024 + 1 * p.val; rw [e0]; omega
  | ⟨1, _⟩ => show t.val % 32 * 512 + q.val = win0_3.index t 1 * 512 + 1 * q.val; rw [e1]; omega

/-- An entry of the array is in point t's block iff each coordinate is in the block's range. -/
theorem mem_blk (t : Fin cfg0.N) (i : S8192x16384.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v1).slice (win0_3.rect t)).set ↔ _
  rw [View.set_slice_whole, Rect.mem_set_unit]
  exact Iff.rfl

/-- Every entry (i, j) is in the block of grid point (i / 1024, j / 512), which is written back. -/
theorem cover (i : S8192x16384.Idx) :
    ∃ t : Fin cfg0.N, (cfg0.win 3).flush t = true ∧ i ∈ ((cfg0.win 3).blk t).view.set := by
  have h0 := idx2_lt0 i
  have h1 := idx2_lt1 i
  have hb : (i 0).val / 1024 * 32 + (i 1).val / 512 < cfg0.N := lt_of_lt_of_eq (by omega) nPoints.symm
  obtain ⟨-, -, -, -, -, -, e0, e1⟩ := idx_facts ⟨(i 0).val / 1024 * 32 + (i 1).val / 512, hb⟩
  refine ⟨⟨(i 0).val / 1024 * 32 + (i 1).val / 512, hb⟩, flush0_3 _, ?_⟩
  rw [mem_blk]
  intro a
  match a with
  | ⟨0, _⟩ =>
    show win0_3.index ⟨(i 0).val / 1024 * 32 + (i 1).val / 512, hb⟩ 0 * 1024 ≤ (i 0).val
      ∧ (i 0).val < win0_3.index ⟨(i 0).val / 1024 * 32 + (i 1).val / 512, hb⟩ 0 * 1024 + 1024
    rw [e0]; show ((i 0).val / 1024 * 32 + (i 1).val / 512) / 32 * 1024 ≤ (i 0).val ∧ (i 0).val < ((i 0).val / 1024 * 32 + (i 1).val / 512) / 32 * 1024 + 1024
    omega
  | ⟨1, _⟩ =>
    show win0_3.index ⟨(i 0).val / 1024 * 32 + (i 1).val / 512, hb⟩ 1 * 512 ≤ (i 1).val
      ∧ (i 1).val < win0_3.index ⟨(i 0).val / 1024 * 32 + (i 1).val / 512, hb⟩ 1 * 512 + 512
    rw [e1]; show ((i 0).val / 1024 * 32 + (i 1).val / 512) % 32 * 512 ≤ (i 1).val ∧ (i 1).val < ((i 0).val / 1024 * 32 + (i 1).val / 512) % 32 * 512 + 512
    omega

/-! ## The array after the run -/

/-- The result array ends holding the projection of the arguments. -/
theorem final (c : Dev nD) : (dats m 0 c).arrAt 3 cfg0.N = result m c :=
  (dats m 0 c).arrAt_eq_of_cover 3 (result m c) (fun t _ => flushed_eq m c t) cover

/-- The kernel's run: the result array at the projection, the three arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Final

end
-- ==== Proof.RefProj.lean ====
/-
  The reference computes the projection. Its five host operations, read at a result index
  (r, c): the transpose turns w[c, k] into wT[k, c]; the contraction of x's axis 1 against
  wT's axis 0 is the sum over k of x[r, k] * wT[k, c]; the two broadcasts carry bias[c]
  first to a [1, 16384] row and then down every row; the addition joins them. Undoing the
  transpose inside the sum leaves the sum over k of x[r, k] * w[c, k], plus bias[c].
-/
import proofs.«115282_g33887291965657_cont_8to1_b_748_5_alg».proof.Proof.Gen.ReferenceIdeal.Read
import proofs.«115282_g33887291965657_cont_8to1_b_748_5_alg».proof.Proof.Spec

noncomputable section

namespace Cert.ReferenceIdeal.RefValue

open Cert.ReferenceIdeal Cert.ReferenceIdeal.Read Idealize.ShloMosaic Idealize.ShloMosaic.ValueIdx

/-- The left operand of the contraction is read at (r, k). -/
theorem lidx_eq (i : S8192x16384.Idx) (k : Fin 4096) : lidx_main_v1 i k = ix2 (i 0) k :=
  funext fun a => by match a with | ⟨0, _⟩ => rfl | ⟨1, _⟩ => rfl

/-- The right operand is the transpose read at (k, c): w itself at (c, k). -/
theorem ridx_eq (i : S8192x16384.Idx) (k : Fin 4096) : idx_main_v0 (ridx_main_v1 i k) = ix2 (i 1) k :=
  funext fun a => by match a with | ⟨0, _⟩ => rfl | ⟨1, _⟩ => rfl

/-- Through both broadcasts the bias is read at c. -/
theorem bidx_eq (i : S8192x16384.Idx) : idx_main_v2 (idx_main_v3 i) = ix1 (i 1) :=
  funext fun a => by match a with | ⟨0, _⟩ => rfl

/-- The reference's result, as the generated stage, is the projection of its three arguments. -/
theorem ref_eq_proj (x : S8192x4096.Idx → EReal) (w : S16384x4096.Idx → EReal) (b : S16384.Idx → EReal) :
    val_main_v4 (F := Ideal) x w b = Cert.Spec.proj x w b := by
  funext i
  rw [val_main_v4_apply, val_main_v1_apply, val_main_v3_apply, val_main_v2_apply]
  simp only [val_main_v0_apply, lidx_eq, ridx_eq, bidx_eq]
  rfl

end Cert.ReferenceIdeal.RefValue

end
-- ==== Proof.lean ====
/-
  The dense projection out = x @ wᵀ + bias (x : 8192 x 4096, w : 16384 x 4096, bias : 16384),
  computed by a tiled kernel and by a plain host program, is one function of the arguments
  over the extended reals.

  The kernel walks an 8 x 32 grid of 1024 x 512 output blocks. It keeps a narrowed copy of the
  current 1024 rows of x in a scratch buffer, refreshed at the first point of each grid row, and
  at every point multiplies that copy against 512 rows of w into a zero accumulator and adds
  the matching 512 bias entries. At the ideal values narrowing is the identity and the product
  is the plain sum over the 4096 columns, so entry (i, j) of the array it leaves is
  sum_k x[i, k] * w[j, k] + bias[j]. The host program transposes w, contracts x against the
  transpose, broadcasts the bias over the rows and adds: the same sum, the same bias term.
  No algebraic law beyond reading both sides at an index is needed, and the finiteness of the
  inputs is never used.
-/
import proofs.«115282_g33887291965657_cont_8to1_b_748_5_alg».proof.Defs
import proofs.«115282_g33887291965657_cont_8to1_b_748_5_alg».proof.Proof.Gen.Kernel
import proofs.«115282_g33887291965657_cont_8to1_b_748_5_alg».proof.Proof.Gen.Kernel.Skeleton
import proofs.«115282_g33887291965657_cont_8to1_b_748_5_alg».proof.Proof.Gen.Kernel.Launch
import proofs.«115282_g33887291965657_cont_8to1_b_748_5_alg».proof.Proof.Gen.Kernel.Points
import proofs.«115282_g33887291965657_cont_8to1_b_748_5_alg».proof.Proof.Gen.Kernel.Frame
import proofs.«115282_g33887291965657_cont_8to1_b_748_5_alg».proof.Proof.Gen.KernelIdeal
import proofs.«115282_g33887291965657_cont_8to1_b_748_5_alg».proof.Proof.Gen.KernelIdeal.Skeleton
import proofs.«115282_g33887291965657_cont_8to1_b_748_5_alg».proof.Proof.Gen.KernelIdeal.Launch
import proofs.«115282_g33887291965657_cont_8to1_b_748_5_alg».proof.Proof.Gen.KernelIdeal.Points
import proofs.«115282_g33887291965657_cont_8to1_b_748_5_alg».proof.Proof.Gen.KernelIdeal.Frame
import proofs.«115282_g33887291965657_cont_8to1_b_748_5_alg».proof.Proof.Gen.ReferenceIdeal
import proofs.«115282_g33887291965657_cont_8to1_b_748_5_alg».proof.Proof.Gen.Pre_finite_inputs
import proofs.«115282_g33887291965657_cont_8to1_b_748_5_alg».proof.Proof.Gen.KernelIdeal.Value
import proofs.«115282_g33887291965657_cont_8to1_b_748_5_alg».proof.Proof.Gen.ReferenceIdeal.Run
import proofs.«115282_g33887291965657_cont_8to1_b_748_5_alg».proof.Proof.Gen.ReferenceIdeal.Read
import Idealize.ShloMosaic.Adequacy
import Idealize.ShloMosaic.Init
import proofs.«115282_g33887291965657_cont_8to1_b_748_5_alg».proof.Proof.Final
import proofs.«115282_g33887291965657_cont_8to1_b_748_5_alg».proof.Proof.RefProj

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The host reference runs and leaves its arguments as launched: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on x, w and bias, the kernel's result array and the reference's both
    end at the projection of those arguments. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq_proj,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
